-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S64x256x56x56 .f32) (main_arg1 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Kernel.lean ====
abbrev S64x256x56x56 : Shape := ⟨4, ![64, 256, 56, 56]⟩
abbrev S256 : Shape := ⟨1, ![256]⟩
abbrev S1x256x1x1 : Shape := ⟨4, ![1, 256, 1, 1]⟩
abbrev S1x256x56x56 : Shape := ⟨4, ![1, 256, 56, 56]⟩

abbrev nBuf : Space → Nat
  | .hbm => 4
  | .vmem => 5
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S1x256x1x1, .f32⟩
  | .hbm, ⟨3, _⟩ => ⟨S64x256x56x56, .f32⟩
  | .local _ .vmem, ⟨0, _⟩ => ⟨S1x256x56x56, .f32⟩
  | .local _ .vmem, ⟨1, _⟩ => ⟨S1x256x56x56, .f32⟩
  | .local _ .vmem, ⟨2, _⟩ => ⟨S1x256x1x1, .f32⟩
  | .local _ .vmem, ⟨3, _⟩ => ⟨S1x256x56x56, .f32⟩
  | .local _ .vmem, ⟨4, _⟩ => ⟨S1x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S256_S1x256x1x1 : S256.ShapeCasts S1x256x1x1
  inb_S1x256x1x1_S1x256x1x1_0_0_0_0 : ∀ a, (![0, 0, 0, 0] : Fin 4 → Nat) a + S1x256x1x1.size a ≤ S1x256x1x1.size a
  h_S1x256x1x1 : 0 < S1x256x1x1.numel
  shapeCasts_S1x256x1x1_S1x256x1x1 : S1x256x1x1.ShapeCasts S1x256x1x1
  inb_S1x256x56x56_S1x256x56x56_0_0_0_0 : ∀ a, (![0, 0, 0, 0] : Fin 4 → Nat) a + S1x256x56x56.size a ≤ S1x256x56x56.size a
  h_S1x256x56x56 : 0 < S1x256x56x56.numel
  broadcasts_S1x256x1x1_S1x256x56x56 : S1x256x1x1.Broadcasts S1x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x56x56.size a ≤ S64x256x56x56.size a
  hwx0_0 : ∀ i : grid0.Coords, EltTy.bits .f32 = 32 ∨ (Rect.block (s := S64x256x56x56) S1x256x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256x1x1.size a ≤ S1x256x1x1.size a
  hwx0_1 : ∀ i : grid0.Coords, EltTy.bits .f32 = 32 ∨ (Rect.block (s := S1x256x1x1) S1x256x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x56x56.size a ≤ S64x256x56x56.size a
  hwx0_2 : ∀ i : grid0.Coords, EltTy.bits .f32 = 32 ∨ (Rect.block (s := S64x256x56x56) S1x256x56x56.size (cc0_transform_2 i) (hinb0_2 i)).WholeWords (EltTy.packing .f32)

variable [Facts₀]

abbrev win0_0 : Pipeline.Window sig grid0 :=
  Pipeline.Window.ofSpec (Memref.whole main_arg0) S1x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x56x56.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S1x256x1x1 : Shape := ⟨4, ![1, 256, 1, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S1x256x1x1, .f32⟩
  | .hbm, ⟨3, _⟩ => ⟨S64x256x56x56, .f32⟩
  | .hbm, ⟨4, _⟩ => ⟨S64x256x56x56, .f32⟩
  | .hbm, ⟨5, _⟩ => ⟨S64x256x56x56, .f32⟩
  | .hbm, ⟨6, _⟩ => ⟨S_, .i32⟩
  | .hbm, ⟨7, _⟩ => ⟨S_, .i32⟩
  | .hbm, ⟨8, _⟩ => ⟨S_, .f32⟩
  | .hbm, ⟨9, _⟩ => ⟨S64x256x56x56, .f32⟩
  | .hbm, ⟨10, _⟩ => ⟨S64x256x56x56, .f32⟩
  | .hbm, ⟨11, _⟩ => ⟨S_, .f32⟩
  | .hbm, ⟨12, _⟩ => ⟨S64x256x56x56, .f32⟩
  | .hbm, ⟨13, _⟩ => ⟨S64x256x56x56, .f32⟩
  | .hbm, ⟨14, _⟩ => ⟨S64x256x56x56, .f32⟩
  | .hbm, ⟨15, _⟩ => ⟨S64x256x56x56, .f32⟩
  | .hbm, ⟨16, _⟩ => ⟨S64x256x56x56, .f32⟩
  | .hbm, ⟨17, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]

class Facts₀ : Prop where
  shapeCasts_S256_S1x256x1x1 : S256.ShapeCasts S1x256x1x1
  bcast_S1x256x1x1_S64x256x56x56_0_1_2_3 : S1x256x1x1.BroadcastsInDim S64x256x56x56 (![0, 1, 2, 3] : Fin 4 → Fin S64x256x56x56.rank)
  bcast_S_S64x256x56x56 : S_.BroadcastsInDim S64x256x56x56 (![] : Fin 0 → Fin S64x256x56x56.rank)

variable [Facts₀]

class Facts : Prop extends Facts₀ where

variable [Facts]
-- ==== Proof.Quantize.lean ====
/-
  Per-channel fake quantization on the extended reals.

  For an element `a` and its channel's step `b` the quantized value is
      quant a b = min 127 (max (-128) (roundeven (a / b))) * b :
  divide by the step, round to the nearest integer (ties to even), clamp to the signed
  eight-bit range, multiply by the step again. The result array of the layer over
  `x : [64, 256, 56, 56]` and `scale : [256]` is `quant (x i) (scale (i 1))` at every index `i`:
  the step of an element is the one of its channel, the second coordinate.

  The straight-through form `x + (q - x)` of the same value is `q` itself whenever `x` is a
  real number: on the extended reals the cancellation needs `x` finite (at `x = ⊤` the
  difference `q - ⊤` is `⊥` and the sum is junk), and nothing of `q` — it holds for
  `q = ⊤` and `q = ⊥` as well, both absorbing a finite summand.
-/
import Idealize.ShloMosaic.PureOps
import Idealize.ShloMosaic.PureOps.Ideal

noncomputable section

namespace Cert.Quantize

open Idealize.ShloMosaic

/-- The input's shape and the shape of the per-channel steps. -/
abbrev SX : Shape := ⟨4, ![64, 256, 56, 56]⟩
abbrev SC : Shape := ⟨1, ![256]⟩

/-- One element quantized with step `b`: `min 127 (max (-128) (roundeven (a / b))) * b`, the two bounds the
    signed 32-bit integers `127` and `-128` (the word `4294967168`) read as extended reals. -/
def quant (a b : Ideal .f32) : Ideal .f32 :=
  FloatOps.mulf
    (FloatOps.minimumf (FloatOps.sitofp .f32 (127#32 : BitVec 32))
      (FloatOps.maximumf (FloatOps.sitofp .f32 (4294967168#32 : BitVec 32))
        (FloatOps.roundeven (FloatOps.divf a b))))
    b

/-- The channel of an index of the input: its second coordinate. -/
def chan (i : SX.Idx) : SC.Idx := fun a => match a with
  | ⟨0, _⟩ => ⟨(i 1).val, (i 1).isLt⟩

/-- The layer's result as one function of its two arguments, index by index. -/
def layer (x : SX.Idx → Ideal .f32) (s : SC.Idx → Ideal .f32) : SX.Idx → Ideal .f32 :=
  fun i => quant (x i) (s (chan i))

/-- Adding a real number to a difference it was subtracted in gives the minuend back, whatever extended real
    the minuend is: for a real minuend this is the field identity, and `⊤` and `⊥` absorb a real summand
    on either side. -/
theorem real_add_sub_cancel (r : ℝ) (q : EReal) : (r : EReal) + (q - (r : EReal)) = q := by
  induction q using EReal.rec with
  | bot => rw [EReal.bot_sub, EReal.add_bot]
  | top => rw [EReal.top_sub_coe, EReal.add_top_of_ne_bot (EReal.coe_ne_bot r)]
  | coe s => rw [← EReal.coe_sub, ← EReal.coe_add]; congr 1; ring

/-- The same for any extended real that is neither infinity. -/
theorem add_sub_cancel_of_finite {x : EReal} (hx : ∃ r : ℝ, x = (r : EReal)) (q : EReal) : x + (q - x) = q := by
  obtain ⟨r, rfl⟩ := hx
  exact real_add_sub_cancel r q

end Cert.Quantize

end
-- ==== Proof.Finite.lean ====
/-
  What the precondition says of the input: every element of `x` is a real number.

  The precondition is the conjunction of two `all`-reductions, `|x| < +inf` over the whole input and
  `|scale| < +inf` over the steps, required to be `1`. A conjunction of bits is `1` only if both are;
  an `and`-reduction from `1` is `1` only if every element is; and `max x (-x) < ⊤` on the extended
  reals leaves `x` neither `⊤` nor `⊥`. Only the first conjunct is needed: the steps may be anything.
-/
import proofs.«136804_j52664888984101_2_alg».proof.Pre_finite_inputs
import Idealize.ShloMosaic.Lib.ReduceAll
import Idealize.ShloMosaic.PureOps.Ideal
import Idealize.ShloMosaic.PureOps.Ideal.Laws

noncomputable section

namespace Cert.Quantize

open Idealize.ShloMosaic Cert.Pre_finite_inputs

/-- The f32 pattern of `+inf` denotes the top of the extended reals. -/
theorem ofBits_inf : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

instance : Subsingleton S_.Idx := ⟨fun a b => funext fun d => d.elim0⟩

/-- Under the precondition every element of the first argument is a real number. -/
theorem real_of_pre [Facts] (x : FVec Ideal S64x256x56x56 .f32) (s : FVec Ideal S256 .f32)
    (h : fn (F := Ideal) x s = fun _ => 1#1) (i : S64x256x56x56.Idx) : ∃ r : ℝ, x i = (r : EReal) := by
  have h0 := congrFun h (fun d => d.elim0)
  dsimp only [fn] at h0
  obtain ⟨hx, -⟩ := IntOp.andi_eq_one.1 h0
  have e := Host.reduce_andi_all _ _ _ _ _ hx i
  have e' : Ideal.cmp .olt (max (x i) (-(x i))) (Ideal.ofBits .f32 0x7F800000#32) = 1#1 := e
  rw [ofBits_inf] at e'
  refine real_of_abs_lt_top (x i) ?_
  by_contra hn
  have e0 : Ideal.cmp .olt (max (x i) (-(x i))) (⊤ : EReal) = 0#1 := by
    show BitVec.ofBool (decide (max (x i) (-(x i)) < (⊤ : EReal))) = 0#1
    rw [decide_eq_false hn]; rfl
  rw [e0] at e'
  exact absurd e' (by decide)

end Cert.Quantize

end
-- ==== Proof.KernelValue.lean ====
/-
  The idealized kernel's result array.

  The grid has 64 points, one per batch entry. At point `t` the body reads batch entry `t` of the input
  (a [1, 256, 56, 56] block), the whole [1, 256, 1, 1] array of per-channel steps (the `scale` argument
  reshaped by the host before the launch), and stores `quant` of each element with its channel's step:
  the step is broadcast along the batch and the two spatial axes, so element `(0, ch, h, w)` of the block meets
  step `(0, ch, 0, 0)`. The output's block at point `t` is batch entry `t` again, so the 64 blocks tile
  the result array and the array ends holding `layer x scale`.
-/
import proofs.«136804_j52664888984101_2_alg».proof.Proof.Gen.KernelIdeal.Value
import proofs.«136804_j52664888984101_2_alg».proof.Proof.Quantize
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Quant

open Cert.KernelIdeal Cert.KernelIdeal.Gen Cert.KernelIdeal.Value Cert.Quantize

variable (m : (ℓ : Loc nD τ sig) → Buf (Elt Ideal) ℓ) (ρ : Dev nD → PrngReg)

theorem zero4 : (![0, 0, 0, 0] : Fin 4 → Nat) = fun _ => 0 := funext fun a => by fin_cases a <;> rfl

/-! ## The body's store, element by element -/

/-- The index of the step an element of a block meets: its channel, the other three coordinates zero. -/
def stepIdx {n h w : Nat} (j : (⟨4, ![n, 256, h, w]⟩ : Shape).Idx) : S1x256x1x1.Idx := fun a => match a with
  | ⟨0, _⟩ => ⟨0, Nat.one_pos⟩
  | ⟨1, _⟩ => ⟨(j 1).val, (j 1).isLt⟩
  | ⟨2, _⟩ => ⟨0, Nat.one_pos⟩
  | ⟨3, _⟩ => ⟨0, Nat.one_pos⟩

/-- The stored value at an element of the block: the element of the input block there, quantized with the step of
    its channel. The shape cast of the steps is onto their own shape; the broadcast reads each step along the three
    unit axes. -/
theorem store_apply (v0 : Vec Ideal S1x256x1x1 .f32) (v2 : Vec Ideal S1x256x56x56 .f32) (j : S1x256x56x56.Idx) :
    k0_pay1 v0 v2 j = quant (v2 j) (v0 (stepIdx j)) := by
  have hb : broadcastTo S1x256x56x56 (shapeCast S1x256x1x1 v0 shapeCasts_S1x256x1x1_S1x256x1x1) broadcasts_S1x256x1x1_S1x256x56x56 j
      = v0 (stepIdx j) := by
    rw [shapeCast_self]
    refine broadcastTo_apply v0 _ j (stepIdx j) fun a => ?_
    match a with
    | ⟨0, _⟩ => show 0 = if (1 : Nat) = 1 then 0 else _; rw [if_pos rfl]
    | ⟨1, _⟩ => show (j 1).val = if (256 : Nat) = 1 then 0 else (j 1).val; rw [if_neg (by decide)]
    | ⟨2, _⟩ => show 0 = if (1 : Nat) = 1 then 0 else _; rw [if_pos rfl]
    | ⟨3, _⟩ => show 0 = if (1 : Nat) = 1 then 0 else _; rw [if_pos rfl]
  unfold k0_pay1
  show FloatOps.mulf (F := Ideal) (φ := .f32) (FloatOps.minimumf _ (FloatOps.maximumf _ (FloatOps.roundeven (FloatOps.divf (v2 j)
      (broadcastTo S1x256x56x56 (shapeCast S1x256x1x1 v0 shapeCasts_S1x256x1x1_S1x256x1x1) broadcasts_S1x256x1x1_S1x256x56x56 j)))))
      (broadcastTo S1x256x56x56 (shapeCast S1x256x1x1 v0 shapeCasts_S1x256x1x1_S1x256x1x1) broadcasts_S1x256x1x1_S1x256x56x56 j) = _
  rw [hb]
  rfl

/-! ## The arrays as the region finds them -/

/-- The steps the region finds: the host's reshape of the `scale` argument. -/
theorem steps_eq (c : Dev nD) :
    (V m c main_v0 : S1x256x1x1.Idx → EReal)
      = shapeCast S1x256x1x1 (m ((c : Thread nD τ).loc main_arg1)) shapeCasts_S256_S1x256x1x1 := by
  dsimp only [Gen.V, Gen.hostOps0]
  after_results
  rfl

/-- A reshaped step read at `(0, ch, 0, 0)` is step `ch`. -/
theorem steps_apply (c : Dev nD) (i : S64x256x56x56.Idx) :
    (V m c main_v0 : S1x256x1x1.Idx → EReal) (stepIdx i) = (m ((c : Thread nD τ).loc main_arg1) : S256.Idx → EReal) (chan i) := by
  rw [steps_eq]
  refine shapeCast_apply _ shapeCasts_S256_S1x256x1x1 (stepIdx i) (chan i) ?_
  rewrite [Shape.rowMajor_val_one, Shape.rowMajor_val_four]
  show (i 1).val = (((0 : Nat) * 256 + (i 1).val) * 1 + 0) * 1 + 0
  omega

/-- What the result array will hold, over the arrays as the region finds them. -/
def found (c : Dev nD) : S64x256x56x56.Idx → EReal :=
  fun i => quant ((V m c main_arg0 : S64x256x56x56.Idx → EReal) i) ((V m c main_v0 : S1x256x1x1.Idx → EReal) (stepIdx i))

/-- Over the arguments as launched it is the layer's function. -/
theorem found_eq (c : Dev nD) :
    found m c = layer (m ((c : Thread nD τ).loc main_arg0)) (m ((c : Thread nD τ).loc main_arg1)) := by
  funext i
  unfold found layer
  rw [steps_apply, V_main_arg0]

/-! ## From blocks to the array -/

/-- The three index maps over the grid: the input's and the output's block at point `t` is batch entry `t`, the
    steps' block is always the whole array. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = 0 ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0) :=
  (by decide +kernel : ∀ t : Fin grid0.N, _)

/-- What point `t` writes back is block `t` of `found`. -/
theorem flushed_eq (c : Dev nD) (t : Fin cfg0.N) :
    (dats m 0 c).flushed 2 t = ((cfg0.win 2).blk t).view.read (Elt Ideal) (found m c) := by
  show (cfg0.win 2).cut (grid0.coords t) ((dats m 0 c).after 2 t) = _
  rw [after0_2]
  unfold out0_2
  rw [View.canon_unit_zero zero4]
  simp only [View.ld_unit_zero (S := S1x256x56x56) zero4, View.ld_unit_zero (S := S1x256x1x1) zero4]
  obtain ⟨⟨a0, a1, a2, a3⟩, ⟨b0, b1, b2, b3⟩, ⟨c0, c1, c2, c3⟩⟩ := idx_facts t
  funext j
  refine (store_apply (iblk m c 1 t) (iblk m c 0 t) j).trans ?_
  show quant (V m c main_arg0 (((cfg0.win 0).blk t).view.emb j)) (V m c main_v0 (((cfg0.win 1).blk t).view.emb (stepIdx j)))
     = quant (V m c main_arg0 (((cfg0.win 2).blk t).view.emb j)) (V m c main_v0 (stepIdx (((cfg0.win 2).blk t).view.emb j)))
  have h0 : ((cfg0.win 0).blk t).view.emb j = ((cfg0.win 2).blk t).view.emb j := by
    funext a; apply Fin.ext
    match a with
    | ⟨0, _⟩ => show win0_0.index t (0 : Fin 4) * 1 + 1 * (j 0).val = win0_2.index t (0 : Fin 4) * 1 + 1 * (j 0).val; omega
    | ⟨1, _⟩ => show win0_0.index t (1 : Fin 4) * 256 + 1 * (j 1).val = win0_2.index t (1 : Fin 4) * 256 + 1 * (j 1).val; omega
    | ⟨2, _⟩ => show win0_0.index t (2 : Fin 4) * 56 + 1 * (j 2).val = win0_2.index t (2 : Fin 4) * 56 + 1 * (j 2).val; omega
    | ⟨3, _⟩ => show win0_0.index t (3 : Fin 4) * 56 + 1 * (j 3).val = win0_2.index t (3 : Fin 4) * 56 + 1 * (j 3).val; omega
  have h1 : ((cfg0.win 1).blk t).view.emb (stepIdx j) = stepIdx (((cfg0.win 2).blk t).view.emb j) := by
    funext a; apply Fin.ext
    match a with
    | ⟨0, _⟩ => show win0_1.index t (0 : Fin 4) * 1 + 1 * 0 = 0; omega
    | ⟨1, _⟩ => show win0_1.index t (1 : Fin 4) * 256 + 1 * (j 1).val = win0_2.index t (1 : Fin 4) * 256 + 1 * (j 1).val; omega
    | ⟨2, _⟩ => show win0_1.index t (2 : Fin 4) * 1 + 1 * 0 = 0; omega
    | ⟨3, _⟩ => show win0_1.index t (3 : Fin 4) * 1 + 1 * 0 = 0; omega
  rw [h0, h1]

/-- An index of the result array is in point `t`'s block iff each coordinate is in the block's range on its axis. -/
theorem mem_blk (t : Fin cfg0.N) (i : S64x256x56x56.Idx) :
    i ∈ ((cfg0.win 2).blk t).view.set ↔ ∀ a : Fin 4, win0_2.index t a * S1x256x56x56.size a ≤ (i a).val ∧ (i a).val < win0_2.index t a * S1x256x56x56.size a + S1x256x56x56.size a := by
  show i ∈ ((View.whole main_v1).slice (win0_2.rect t)).set ↔ _
  rw [View.set_slice_whole, Rect.mem_set_unit]
  exact Iff.rfl

/-- Every index of the result array is in the block of the point its batch coordinate names. -/
theorem covered (i : S64x256x56x56.Idx) :
    ∃ t : Fin cfg0.N, (cfg0.win 2).flush t = true ∧ i ∈ ((cfg0.win 2).blk t).view.set := by
  have hi0 : (i 0).val < 64 := (i 0).isLt
  have hi1 : (i 1).val < 256 := (i 1).isLt
  have hi2 : (i 2).val < 56 := (i 2).isLt
  have hi3 : (i 3).val < 56 := (i 3).isLt
  have hN : cfg0.N = 64 := N_0
  refine ⟨⟨(i 0).val, by rw [hN]; exact hi0⟩, flush0_2 _, ?_⟩
  rw [mem_blk]
  obtain ⟨-, -, ⟨c0, c1, c2, c3⟩⟩ := idx_facts ⟨(i 0).val, by rw [hN]; exact hi0⟩
  intro a
  match a with
  | ⟨0, _⟩ => show win0_2.index _ (0 : Fin 4) * 1 ≤ (i 0).val ∧ (i 0).val < win0_2.index _ (0 : Fin 4) * 1 + 1; rw [c0]; show (i 0).val * 1 ≤ (i 0).val ∧ (i 0).val < (i 0).val * 1 + 1; omega
  | ⟨1, _⟩ => show win0_2.index _ (1 : Fin 4) * 256 ≤ (i 1).val ∧ (i 1).val < win0_2.index _ (1 : Fin 4) * 256 + 256; rw [c1]; omega
  | ⟨2, _⟩ => show win0_2.index _ (2 : Fin 4) * 56 ≤ (i 2).val ∧ (i 2).val < win0_2.index _ (2 : Fin 4) * 56 + 56; rw [c2]; omega
  | ⟨3, _⟩ => show win0_2.index _ (3 : Fin 4) * 56 ≤ (i 3).val ∧ (i 3).val < win0_2.index _ (3 : Fin 4) * 56 + 56; rw [c3]; omega

/-- The result array after the run: the layer's function of the two arguments. -/
theorem final (c : Dev nD) :
    (dats m 0 c).arrAt 2 cfg0.N = layer (m ((c : Thread nD τ).loc main_arg0)) (m ((c : Thread nD τ).loc main_arg1)) :=
  ((dats m 0 c).arrAt_eq_of_cover 2 (found m c) (fun t _ => flushed_eq m c t) covered).trans (found_eq m c)

/-- The kernel's run: every weakly fair execution terminates with the result array at the layer's function of
    the arguments and the arguments unchanged. -/
theorem run : θ_run defs (onTc (τ := τ) (main (F := Ideal))) ⟨m, fun _ => 0, ρ⟩ fun r => ∀ c : Dev nD,
      r.2.mem ((c : Thread nD τ).loc main_v1) = layer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Quant

end
-- ==== Proof.ReferenceValue.lean ====
/-
  The idealized reference's result array.

  The reference reshapes the steps to [1, 256, 1, 1] and broadcasts them to the input's shape, divides, rounds to even,
  clamps between `-128` and `127`, multiplies by the broadcast steps — that is `quant` of each element with its
  channel's step — and returns the straight-through form `x + (q - x)`. Read at an index `i`, every broadcast and the
  reshape read step `i 1`; the host's quotient and rounding are the kernel's on the extended reals. Where `x i` is a
  real number the straight-through form is `q`, so the result is the layer's function.
-/
import proofs.«136804_j52664888984101_2_alg».proof.Proof.Gen.ReferenceIdeal.Read
import proofs.«136804_j52664888984101_2_alg».proof.Proof.Quantize

noncomputable section

open Idealize.ShloMosaic Idealize.ShloMosaic.TcCoe Idealize.SL.Sem

namespace Cert.ReferenceIdeal.Quant

open Cert.ReferenceIdeal Cert.ReferenceIdeal.Read Cert.Quantize

/-- The reshaped, broadcast steps read at `i` are step `i 1` (the two broadcasts read the reshaped steps at the same index). -/
theorem step_idx (i : S64x256x56x56.Idx) : idx_main_v0 (idx_main_v1 i) = chan i := by
  funext a; apply Fin.ext
  match a with
  | ⟨0, _⟩ => show (((0 : Nat) * 256 + (i 1).val) * 1 + 0) * 1 + 0 = (i 1).val; omega

/-- The reference's result is the layer's function of its arguments wherever the input is finite. -/
theorem result_eq (x : (⟨S64x256x56x56, .f32⟩ : BufTy).Contents (Elt Ideal)) (s : (⟨S256, .f32⟩ : BufTy).Contents (Elt Ideal))
    (hx : ∀ i, ∃ r : ℝ, x i = (r : EReal)) :
    val_main_v8 (F := Ideal) x s = layer x s := by
  funext i
  rw [val_main_v8_apply, val_main_v7_apply, val_main_v6_apply, val_main_v4_apply, val_main_v5_apply, val_main_v0_apply,
    val_main_call1_v4_apply, val_main_call1_v3_apply, val_main_c_0_apply, val_main_call1_v2_apply, val_main_call1_v1_apply,
    val_main_call1_v0_apply, val_main_c_apply, val_main_v3_apply, val_main_v2_apply, val_main_v1_apply, val_main_v0_apply,
    step_idx]
  show x i + (quant (x i) (s (chan i)) - x i) = quant (x i) (s (chan i))
  exact add_sub_cancel_of_finite (hx i) _

end Cert.ReferenceIdeal.Quant

end
-- ==== Proof.lean ====
/-
  Per-channel fake quantization: the kernel against its reference, on the extended reals.

  Both programs compute, for `x : [64, 256, 56, 56]` and per-channel steps `scale : [256]`,
      q i = min 127 (max (-128) (roundeven (x i / scale (i 1)))) * scale (i 1).
  The kernel does so one batch entry per grid point, with the steps reshaped to [1, 256, 1, 1] and broadcast inside the
  body; its 64 output blocks tile the result array (Proof/KernelValue.lean). The reference computes the same `q` over the
  whole array and returns the straight-through form `x + (q - x)` (Proof/ReferenceValue.lean), which is `q` wherever `x` is
  a real number (Proof/Quantize.lean) — and the precondition makes every element of `x` one (Proof/Finite.lean). Nothing is
  asked of the steps: a zero or infinite step gives the same junk value on both sides, the two quotients, roundings and
  clamps being the same functions of the same operands.

  The three programs run, terminate and leave their arguments unchanged: for the two kernels by their launch, for the
  reference by its run with the result dropped. No operation of the kernel was rewritten for the idealized reading, so
  the idealization claim has no conjunct.
-/
import proofs.«136804_j52664888984101_2_alg».proof.Defs
import proofs.«136804_j52664888984101_2_alg».proof.Proof.Gen.Kernel
import proofs.«136804_j52664888984101_2_alg».proof.Proof.Gen.Kernel.Skeleton
import proofs.«136804_j52664888984101_2_alg».proof.Proof.Gen.Kernel.Launch
import proofs.«136804_j52664888984101_2_alg».proof.Proof.Gen.Kernel.Points
import proofs.«136804_j52664888984101_2_alg».proof.Proof.Gen.Kernel.Frame
import proofs.«136804_j52664888984101_2_alg».proof.Proof.Gen.KernelIdeal
import proofs.«136804_j52664888984101_2_alg».proof.Proof.Gen.KernelIdeal.Skeleton
import proofs.«136804_j52664888984101_2_alg».proof.Proof.Gen.KernelIdeal.Launch
import proofs.«136804_j52664888984101_2_alg».proof.Proof.Gen.KernelIdeal.Points
import proofs.«136804_j52664888984101_2_alg».proof.Proof.Gen.KernelIdeal.Frame
import proofs.«136804_j52664888984101_2_alg».proof.Proof.Gen.ReferenceIdeal
import proofs.«136804_j52664888984101_2_alg».proof.Proof.Gen.KernelIdeal.Value
import proofs.«136804_j52664888984101_2_alg».proof.Proof.Gen.ReferenceIdeal.Run
import proofs.«136804_j52664888984101_2_alg».proof.Proof.Gen.ReferenceIdeal.Read
import proofs.«136804_j52664888984101_2_alg».proof.Proof.Gen.Pre_finite_inputs
import proofs.«136804_j52664888984101_2_alg».proof.Proof.Quantize
import proofs.«136804_j52664888984101_2_alg».proof.Proof.Finite
import proofs.«136804_j52664888984101_2_alg».proof.Proof.KernelValue
import proofs.«136804_j52664888984101_2_alg».proof.Proof.ReferenceValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer's function of the arguments in their result
    arrays: the kernel by its blocks, the reference by the cancellation `x + (q - x) = q` at the finite `x` the
    precondition gives. -/
theorem algebraic : Cert.algebraic_KernelIdeal_ReferenceIdeal := by
  intro m ρ m' ρ' hpre hagree
  refine ⟨_, Cert.KernelIdeal.Quant.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2]
  exact Cert.ReferenceIdeal.Quant.result_eq _ _ (fun i => Cert.Quantize.real_of_pre _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
